-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x200 : Shape := ⟨2, ![100000, 200]⟩
abbrev S500x200 : Shape := ⟨2, ![500, 200]⟩
abbrev S365x200 : Shape := ⟨2, ![365, 200]⟩
abbrev S200x200 : Shape := ⟨2, ![200, 200]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S365x200 : S_.BroadcastsInDim S365x200 (![] : Fin 0 → Fin S365x200.rank)
  reducesTo_S365x200_S_d0_1 : S365x200.ReducesTo [0, 1] S_
  bcast_S_S200x200 : S_.BroadcastsInDim S200x200 (![] : Fin 0 → Fin S200x200.rank)
  reducesTo_S200x200_S_d0_1 : S200x200.ReducesTo [0, 1] S_

variable [Facts]

def fn_part1 {F : FTy → Type} [FloatOps F] (main_arg7 : FVec F S200x200 .f32) (main_arg8 : FVec F S200x200 .f32) (main_arg9 : FVec F S200x200 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200x200 .f32 := Host.absf main_arg7
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S200x200 .f32 := Host.absf main_arg8
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x200 .f32 := Host.absf main_arg9
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  main_v33

def fn {F : FTy → Type} [FloatOps F] (main_arg0 : IVec S1024 32) (main_arg1 : IVec S1024 32) (main_arg2 : IVec S1024 32) (main_arg3 : FVec F S100000x200 .f32) (main_arg4 : FVec F S500x200 .f32) (main_arg5 : FVec F S365x200 .f32) (main_arg6 : FVec F S200x200 .f32) (main_arg7 : FVec F S200x200 .f32) (main_arg8 : FVec F S200x200 .f32) (main_arg9 : FVec F S200x200 .f32) : IVec S_ 1 :=
  let main_v0 : FVec F S100000x200 .f32 := Host.absf main_arg3
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S500x200 .f32 := Host.absf main_arg4
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S365x200 .f32 := Host.absf main_arg5
  let main_cst_2 : FVec F S_ .f32 := constant S_ .f32 0x7F800000#32
  let main_v10 : FVec F S365x200 .f32 := broadcastInDim S365x200 ![] bcast_S_S365x200 main_cst_2
  let main_v11 : IVec S365x200 1 := cmpf .olt main_v9 main_v10
  let main_c_3 : IVec S_ 1 := constantI S_ 1 1#1
  let main_v12 : IVec S_ 1 := (fun x v => Host.reduce IntOp.andi x v reducesTo_S365x200_S_d0_1 h_S_) main_v11 main_c_3
  let main_v13 : IVec S_ 1 := andi main_v8 main_v12
  let main_v14 : FVec F S200x200 .f32 := Host.absf main_arg6
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg7 main_arg8 main_arg9 main_v13 main_v16
-- ==== Kernel.lean ====
abbrev S1024 : Shape := ⟨1, ![1024]⟩
abbrev S100000x200 : Shape := ⟨2, ![100000, 200]⟩
abbrev S500x200 : Shape := ⟨2, ![500, 200]⟩
abbrev S365x200 : Shape := ⟨2, ![365, 200]⟩
abbrev S200x200 : Shape := ⟨2, ![200, 200]⟩
abbrev S_ : Shape := ⟨0, ![]⟩
abbrev S1024x1 : Shape := ⟨2, ![1024, 1]⟩
abbrev S1024x200 : Shape := ⟨2, ![1024, 200]⟩
abbrev S101376x200 : Shape := ⟨2, ![101376, 200]⟩
abbrev S1024x101376 : Shape := ⟨2, ![1024, 101376]⟩
abbrev S1536x200 : Shape := ⟨2, ![1536, 200]⟩
abbrev S1024x1536 : Shape := ⟨2, ![1024, 1536]⟩
abbrev S1024x100000 : Shape := ⟨2, ![1024, 100000]⟩

abbrev nBuf : Space → Nat
  | .hbm => 47
  | .vmem => 6
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S100000x200, .f32⟩
  | .hbm, ⟨4, _⟩ => ⟨S500x200, .f32⟩
  | .hbm, ⟨5, _⟩ => ⟨S365x200, .f32⟩
  | .hbm, ⟨6, _⟩ => ⟨S200x200, .f32⟩
  | .hbm, ⟨7, _⟩ => ⟨S200x200, .f32⟩
  | .hbm, ⟨8, _⟩ => ⟨S200x200, .f32⟩
  | .hbm, ⟨9, _⟩ => ⟨S200x200, .f32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x200, .f32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x200, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x200, .f32⟩
  | .hbm, ⟨37, _⟩ => ⟨S1024x200, .f32⟩
  | .hbm, ⟨38, _⟩ => ⟨S1024x200, .f32⟩
  | .hbm, ⟨39, _⟩ => ⟨S1024x200, .f32⟩
  | .hbm, ⟨40, _⟩ => ⟨S1024x200, .f32⟩
  | .hbm, ⟨41, _⟩ => ⟨S1024x200, .f32⟩
  | .hbm, ⟨42, _⟩ => ⟨S_, .i32⟩
  | .hbm, ⟨43, _⟩ => ⟨S_, .f32⟩
  | .hbm, ⟨44, _⟩ => ⟨S101376x200, .f32⟩
  | .hbm, ⟨45, _⟩ => ⟨S1024x101376, .f32⟩
  | .hbm, ⟨46, _⟩ => ⟨S1024x100000, .f32⟩
  | .local _ .vmem, ⟨0, _⟩ => ⟨S1024x200, .f32⟩
  | .local _ .vmem, ⟨1, _⟩ => ⟨S200x200, .f32⟩
  | .local _ .vmem, ⟨2, _⟩ => ⟨S1536x200, .f32⟩
  | .local _ .vmem, ⟨3, _⟩ => ⟨S1536x200, .f32⟩
  | .local _ .vmem, ⟨4, _⟩ => ⟨S1024x1536, .f32⟩
  | .local _ .vmem, ⟨5, _⟩ => ⟨S1024x1536, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_call0_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  pads_S100000x200_S101376x200_013760_000 : S100000x200.Pads (![0, 0] : Fin 2 → Nat) ![1376, 0] ![0, 0] S101376x200
  h_S_ : 0 < S_.numel
  inb_S1536x200_S1536x200_0_0 : ∀ a, (![0, 0] : Fin 2 → Nat) a + S1536x200.size a ≤ S1536x200.size a
  h_S1536x200 : 0 < S1536x200.numel
  shapeCasts_S1536x200_S1536x200 : S1536x200.ShapeCasts S1536x200
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1024x1536_S1024x1536_0_0 : ∀ a, (![0, 0] : Fin 2 → Nat) a + S1024x1536.size a ≤ S1024x1536.size a
  h_S1024x1536 : 0 < S1024x1536.numel
  slices_S1024x101376_S1024x100000_0_0 : S1024x101376.Slices ![0, 0] S1024x100000
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  gather_S365x200_S1024x1_S1024x200_1_0_n_n_0_1_1200_wf : GatherDims.WF S365x200 S1024x1 S1024x200 [1] [0] [] [0] [] 1 ![1, 200]
  dot_S1024x200_S200x200_S1024x200_1_0_0_1_n_n_wf : DotDims.WF S1024x200 S200x200 S1024x200 [1] [0] [0] [1] [] []
  dot_S1536x200_S200x200_S1536x200_1_0_0_1_n_n_wf : DotDims.WF S1536x200 S200x200 S1536x200 [1] [0] [0] [1] [] []
  dot_S1024x200_S1536x200_S1024x1536_1_1_0_0_n_n_wf : DotDims.WF S1024x200 S1536x200 S1024x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S1024x200.size a
  hwx0_0 : ∀ i : grid0.Coords, EltTy.bits .f32 = 32 ∨ (Rect.block (s := S1024x200) S1024x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x200.size a ≤ S200x200.size a
  hwx0_1 : ∀ i : grid0.Coords, EltTy.bits .f32 = 32 ∨ (Rect.block (s := S200x200) S200x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x200.size a ≤ S101376x200.size a
  hwx0_2 : ∀ i : grid0.Coords, EltTy.bits .f32 = 32 ∨ (Rect.block (s := S101376x200) S1536x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S1024x101376.size a
  hwx0_3 : ∀ i : grid0.Coords, EltTy.bits .f32 = 32 ∨ (Rect.block (s := S1024x101376) S1024x1536.size (cc0_transform_3 i) (hinb0_3 i)).WholeWords (EltTy.packing .f32)

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def gather_S365x200_S1024x1_S1024x200_1_0_n_n_0_1_1200 : GatherDims S365x200 S1024x1 S1024x200 where
  offsetDims := [1]
  collapsedSliceDims := [0]
  operandBatchingDims := []
  startIndicesBatchingDims := []
  startIndexMap := [0]
  indexVectorDim := 1
  sliceSizes := ![1, 200]
  wf := gather_S365x200_S1024x1_S1024x200_1_0_n_n_0_1_1200_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1536x200_S200x200_S1536x200_1_0_0_1_n_n : DotDims S1536x200 S200x200 S1536x200 where
  lhsContracting := [1]
  rhsContracting := [0]
  lhsNonContracting := [0]
  rhsNonContracting := [1]
  lhsBatch := []
  rhsBatch := []
  wf := dot_S1536x200_S200x200_S1536x200_1_0_0_1_n_n_wf
def dot_S1024x200_S1536x200_S1024x1536_1_1_0_0_n_n : DotDims S1024x200 S1536x200 S1024x1536 where
  lhsContracting := [1]
  rhsContracting := [1]
  lhsNonContracting := [0]
  rhsNonContracting := [0]
  lhsBatch := []
  rhsBatch := []
  wf := dot_S1024x200_S1536x200_S1024x1536_1_1_0_0_n_n_wf

abbrev win0_0 : Pipeline.Window sig grid0 :=
  Pipeline.Window.ofSpec (Memref.whole main_v25) S1024x200.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S200x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1536x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S100000x200 : Shape := ⟨2, ![100000, 200]⟩
abbrev S500x200 : Shape := ⟨2, ![500, 200]⟩
abbrev S365x200 : Shape := ⟨2, ![365, 200]⟩
abbrev S200x200 : Shape := ⟨2, ![200, 200]⟩
abbrev S_ : Shape := ⟨0, ![]⟩
abbrev S1024x1 : Shape := ⟨2, ![1024, 1]⟩
abbrev S1024x200 : Shape := ⟨2, ![1024, 200]⟩
abbrev S200x100000 : Shape := ⟨2, ![200, 100000]⟩
abbrev S1024x100000 : Shape := ⟨2, ![1024, 100000]⟩

abbrev nBuf : Space → Nat
  | .hbm => 53
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S100000x200, .f32⟩
  | .hbm, ⟨4, _⟩ => ⟨S500x200, .f32⟩
  | .hbm, ⟨5, _⟩ => ⟨S365x200, .f32⟩
  | .hbm, ⟨6, _⟩ => ⟨S200x200, .f32⟩
  | .hbm, ⟨7, _⟩ => ⟨S200x200, .f32⟩
  | .hbm, ⟨8, _⟩ => ⟨S200x200, .f32⟩
  | .hbm, ⟨9, _⟩ => ⟨S200x200, .f32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x200, .f32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x200, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x200, .f32⟩
  | .hbm, ⟨37, _⟩ => ⟨S1024x200, .f32⟩
  | .hbm, ⟨38, _⟩ => ⟨S1024x200, .f32⟩
  | .hbm, ⟨39, _⟩ => ⟨S1024x200, .f32⟩
  | .hbm, ⟨40, _⟩ => ⟨S100000x200, .f32⟩
  | .hbm, ⟨41, _⟩ => ⟨S1024x200, .f32⟩
  | .hbm, ⟨42, _⟩ => ⟨S1024x200, .f32⟩
  | .hbm, ⟨43, _⟩ => ⟨S200x100000, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024x100000, .f32⟩
  | .hbm, ⟨49, _⟩ => ⟨S1024x100000, .f32⟩
  | .hbm, ⟨50, _⟩ => ⟨S_, .f32⟩
  | .hbm, ⟨51, _⟩ => ⟨S1024x100000, .f32⟩
  | .hbm, ⟨52, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S100000x200_S200x100000_1_0 : S100000x200.Transposes [1, 0] S200x100000
  bcast_S_S1024x100000 : S_.BroadcastsInDim S1024x100000 (![] : Fin 0 → Fin S1024x100000.rank)
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  gather_S365x200_S1024x1_S1024x200_1_0_n_n_0_1_1200_wf : GatherDims.WF S365x200 S1024x1 S1024x200 [1] [0] [] [0] [] 1 ![1, 200]
  dot_S1024x200_S200x200_S1024x200_1_0_0_1_n_n_wf : DotDims.WF S1024x200 S200x200 S1024x200 [1] [0] [0] [1] [] []
  dot_S100000x200_S200x200_S100000x200_1_0_0_1_n_n_wf : DotDims.WF S100000x200 S200x200 S100000x200 [1] [0] [0] [1] [] []
  dot_S1024x200_S200x100000_S1024x100000_1_0_0_1_n_n_wf : DotDims.WF S1024x200 S200x100000 S1024x100000 [1] [0] [0] [1] [] []

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def gather_S365x200_S1024x1_S1024x200_1_0_n_n_0_1_1200 : GatherDims S365x200 S1024x1 S1024x200 where
  offsetDims := [1]
  collapsedSliceDims := [0]
  operandBatchingDims := []
  startIndicesBatchingDims := []
  startIndexMap := [0]
  indexVectorDim := 1
  sliceSizes := ![1, 200]
  wf := gather_S365x200_S1024x1_S1024x200_1_0_n_n_0_1_1200_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S100000x200_S200x200_S100000x200_1_0_0_1_n_n : DotDims S100000x200 S200x200 S100000x200 where
  lhsContracting := [1]
  rhsContracting := [0]
  lhsNonContracting := [0]
  rhsNonContracting := [1]
  lhsBatch := []
  rhsBatch := []
  wf := dot_S100000x200_S200x200_S100000x200_1_0_0_1_n_n_wf
def dot_S1024x200_S200x100000_S1024x100000_1_0_0_1_n_n : DotDims S1024x200 S200x100000 S1024x100000 where
  lhsContracting := [1]
  rhsContracting := [0]
  lhsNonContracting := [0]
  rhsNonContracting := [1]
  lhsBatch := []
  rhsBatch := []
  wf := dot_S1024x200_S200x100000_S1024x100000_1_0_0_1_n_n_wf

class Facts : Prop extends Facts₀ where

variable [Facts]
-- ==== Proof.ScoreSpec.lean ====
/-
  The score of a query against an entity in a rank-200 factorisation, over the extended reals.

  A query row `u` (200 rank coordinates) meets an entity row `e` (200 embedding coordinates) through a factor matrix `W`
  (embedding coordinate by rank coordinate): the entity row is projected into the rank space, `(e W) p = ∑ d, e d * W d p`,
  the projection is contracted with the query row, `x = ∑ p, u p * (e W) p`, and the score is the logistic function of
  `x`. Nothing is re-associated or distributed: both programs of this certificate compute the sums in exactly this
  nesting, so the definition is the common value of the two and no finiteness of the entries is needed.
-/
import Idealize.ShloMosaic.PureOps.Ideal
import Idealize.ShloMosaic.Lib.ValueIdx

noncomputable section

namespace Cert.Score

open Idealize.ShloMosaic Idealize.ShloMosaic.ValueIdx
open scoped BigOperators

/-- One query row against one entity row through the factor matrix: the logistic function of
    `∑ p, u p * ∑ d, e d * W d p`. -/
def rowScore (u : Fin 200 → EReal) (W : Fin 200 → Fin 200 → EReal) (e : Fin 200 → EReal) : EReal :=
  Ideal.logistic (∑ p : Fin 200, u p * ∑ d : Fin 200, e d * W d p)

/-- The score of query `b` against entity `n`, read off a table `q` of 1024 query rows, the factor matrix `W` and a
    table `E` of `N` entity rows. -/
def scoreAt {N : ℕ} (q : (⟨2, ![1024, 200]⟩ : Shape).Idx → EReal) (W : (⟨2, ![200, 200]⟩ : Shape).Idx → EReal)
    (E : (⟨2, ![N, 200]⟩ : Shape).Idx → EReal) (b : Fin 1024) (n : Fin N) : EReal :=
  rowScore (fun p => q (ix2 b p)) (fun d p => W (ix2 d p)) (fun d => E (ix2 n d))

/-- The whole table of scores, queries by entities. -/
def scores {N : ℕ} (q : (⟨2, ![1024, 200]⟩ : Shape).Idx → EReal) (W : (⟨2, ![200, 200]⟩ : Shape).Idx → EReal)
    (E : (⟨2, ![N, 200]⟩ : Shape).Idx → EReal) : (⟨2, ![1024, N]⟩ : Shape).Idx → EReal :=
  fun i => scoreAt q W E (i 0) (i 1)

/-- The table read at coordinates. -/
theorem scores_ix2 {N : ℕ} (q : (⟨2, ![1024, 200]⟩ : Shape).Idx → EReal) (W : (⟨2, ![200, 200]⟩ : Shape).Idx → EReal)
    (E : (⟨2, ![N, 200]⟩ : Shape).Idx → EReal) (b : Fin 1024) (n : Fin N) :
    scores q W E (ix2 b n) = scoreAt q W E b n := rfl

/-- A score depends on the entity table only through the entity's own row. -/
theorem scoreAt_congr_row {N N' : ℕ} (q : (⟨2, ![1024, 200]⟩ : Shape).Idx → EReal) (W : (⟨2, ![200, 200]⟩ : Shape).Idx → EReal)
    (E : (⟨2, ![N, 200]⟩ : Shape).Idx → EReal) (E' : (⟨2, ![N', 200]⟩ : Shape).Idx → EReal) (b : Fin 1024) (n : Fin N) (n' : Fin N')
    (h : ∀ d : Fin 200, E (ix2 n d) = E' (ix2 n' d)) : scoreAt q W E b n = scoreAt q W E' b n' := by
  unfold scoreAt
  exact congrArg (rowScore _ _) (funext h)

/-- A score depends on the three tables only through the query's row, the factor matrix and the entity's row: tables
    that agree there — the rows possibly sitting at differently spelt positions of differently sized tables — give the
    same score. -/
theorem scoreAt_congr {N N' : ℕ} (q q' : (⟨2, ![1024, 200]⟩ : Shape).Idx → EReal) (W W' : (⟨2, ![200, 200]⟩ : Shape).Idx → EReal)
    (E : (⟨2, ![N, 200]⟩ : Shape).Idx → EReal) (E' : (⟨2, ![N', 200]⟩ : Shape).Idx → EReal)
    (b b' : Fin 1024) (n : Fin N) (n' : Fin N')
    (hq : ∀ p : Fin 200, q (ix2 b p) = q' (ix2 b' p)) (hW : ∀ d p : Fin 200, W (ix2 d p) = W' (ix2 d p))
    (hE : ∀ d : Fin 200, E (ix2 n d) = E' (ix2 n' d)) :
    scoreAt q W E b n = scoreAt q' W' E' b' n' := by
  unfold scoreAt
  rw [show (fun p => q (ix2 b p)) = fun p => q' (ix2 b' p) from funext hq,
    show (fun d p => W (ix2 d p)) = fun d p => W' (ix2 d p) from funext fun d => funext (hW d),
    show (fun d => E (ix2 n d)) = fun d => E' (ix2 n' d) from funext hE]

/-- The logistic function written out as a quotient, `1 / (1 + e⁻ˣ)`, at every extended real. -/
theorem one_div_one_add_exp_neg (x : EReal) : Ideal.div 1 (1 + Ideal.exp (-x)) = Ideal.logistic x := rfl

end Cert.Score

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.BodyValue.lean ====
/-
  What the kernel's body stores, read at an index.

  The body loads a tile of 1536 entity rows, the factor matrix and the 1024 query rows, multiplies the tile by the factor
  matrix into a zero accumulator (a plain rows-by-columns contraction), multiplies the query rows by the TRANSPOSE of that
  product into a zero accumulator (both operands contracted on their last axis), and applies the logistic function lane
  by lane. The changes of float format in between are the identity on the extended reals. So the stored value at
  (query `b`, tile row `j`) is the score of query `b` against the tile's row `j`.
-/
import proofs.«133441_j49254684951151_1_alg».proof.Proof.Gen.KernelIdeal.Skeleton
import proofs.«133441_j49254684951151_1_alg».proof.Proof.ScoreSpec
import proofs.«133441_j49254684951151_1_alg».proof.Proof.LibDenseRows
import proofs.«133441_j49254684951151_1_alg».proof.Proof.LibHiLoMatmul

noncomputable section

namespace Cert.KernelIdeal.BodyValue

open Cert.KernelIdeal Cert.KernelIdeal.Gen Idealize.ShloMosaic Idealize.ShloMosaic.ValueIdx
open scoped BigOperators

/-- The tile-by-factor product keeps the tile's row: the left operand is read at the output's row. -/
theorem proj_lhs_row (i : S1536x200.Idx) (k : dot_S1536x200_S200x200_S1536x200_1_0_0_1_n_n.contr.Idx) :
    (dot_S1536x200_S200x200_S1536x200_1_0_0_1_n_n.lhsIdx i k 0).val = (i 0).val := by
  unfold DotDims.lhsIdx
  rw [dif_neg (show ¬(0 : Fin S1536x200.rank) ∈ dot_S1536x200_S200x200_S1536x200_1_0_0_1_n_n.lhsBatch by decide),
    dif_pos (show (0 : Fin S1536x200.rank) ∈ dot_S1536x200_S200x200_S1536x200_1_0_0_1_n_n.lhsNonContracting by decide)]
  rfl

/-- … and the factor matrix's column: the right operand is read at the output's column. -/
theorem proj_rhs_col (i : S1536x200.Idx) (k : dot_S1536x200_S200x200_S1536x200_1_0_0_1_n_n.contr.Idx) :
    (dot_S1536x200_S200x200_S1536x200_1_0_0_1_n_n.rhsIdx i k 1).val = (i 1).val := by
  unfold DotDims.rhsIdx
  rw [dif_neg (show ¬(1 : Fin S200x200.rank) ∈ dot_S1536x200_S200x200_S1536x200_1_0_0_1_n_n.rhsBatch by decide),
    dif_pos (show (1 : Fin S200x200.rank) ∈ dot_S1536x200_S200x200_S1536x200_1_0_0_1_n_n.rhsNonContracting by decide)]
  rfl

/-- The projected tile at (row `j`, rank coordinate `p`): `∑ d, e (j, d) * w (d, p)`. -/
theorem projected_apply (e : FVec Ideal S1536x200 .f32) (w : FVec Ideal S200x200 .f32) (j : Fin 1536) (p : Fin 200) :
    matmul dot_S1536x200_S200x200_S1536x200_1_0_0_1_n_n none
        (truncf .bf16 (shapeCast S1536x200 e shapeCasts_S1536x200_S1536x200) bitsLt_bf16_f32)
        (truncf .bf16 w bitsLt_bf16_f32) (constant (F := Ideal) S1536x200 .f32 0x00000000#32) (ix2 j p)
      = ∑ d : Fin 200, e (ix2 j d) * w (ix2 d p) :=
  (Cert.DenseRows.matmul_zero_plain_apply dot_S1536x200_S200x200_S1536x200_1_0_0_1_n_n rfl rfl rfl rfl
      proj_lhs_row proj_rhs_col _ _ j p).trans
    (Finset.sum_congr rfl fun d _ =>
      congrArg (· * w (ix2 d p)) (congrFun (shapeCast_self e shapeCasts_S1536x200_S1536x200) (ix2 j d)))

/-- THE STORED VALUE at (query `b`, tile row `j`) is the score of query `b` against the tile's row `j`. -/
theorem payload_apply (e : FVec Ideal S1536x200 .f32) (w : FVec Ideal S200x200 .f32) (u : FVec Ideal S1024x200 .f32)
    (b : Fin 1024) (j : Fin 1536) :
    k0_pay1 (F := Ideal) e w u (ix2 b j) = Cert.Score.scoreAt u w e b j := by
  unfold k0_pay1 Cert.Score.scoreAt Cert.Score.rowScore
  show Ideal.logistic _ = Ideal.logistic _
  refine congrArg Ideal.logistic ?_
  refine (Cert.HiLoMatmul.matmul_nt_zero_apply dot_S1024x200_S1536x200_S1024x1536_1_1_0_0_n_n_wf none _ _ b j).trans ?_
  refine Finset.sum_congr rfl fun p _ => ?_
  exact congrArg₂ (· * ·) (congrFun (shapeCast_self u shapeCasts_S1024x200_S1024x200) (ix2 b p)) (projected_apply e w j p)

end Cert.KernelIdeal.BodyValue

end
-- ==== Proof.Blocks.lean ====
/-
  From blocks to the array: after the grid has run, the kernel's output array is the table of scores of the query rows
  against EVERY row of the padded entity table.

  The grid has 66 points. At point `t` the body sees the whole query table and the whole factor matrix (their blocks do
  not move) and the tile of entity rows `1536 t … 1536 t + 1535`; it writes back columns `1536 t … 1536 t + 1535` of the
  output. So what point `t` writes back is block `t` of ONE function of the three tables as the region finds them (the
  table of scores), the 66 column blocks cover the output array, and the array ends holding that function.
-/
import proofs.«133441_j49254684951151_1_alg».proof.Proof.Gen.KernelIdeal.Frame
import proofs.«133441_j49254684951151_1_alg».proof.Proof.BodyValue
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body's loads and its store start at the corner of their buffers. -/
theorem corner : (![0, 0] : Fin 2 → Nat) = fun _ => 0 := funext fun a => by fin_cases a <;> rfl

/-- The table of scores over the padded entity table, from the three tables as the region finds them. -/
abbrev paddedScores (c : Dev nD) : S1024x101376.Idx → EReal :=
  Cert.Score.scores (V m c main_v25 : S1024x200.Idx → EReal) (V m c main_arg8 : S200x200.Idx → EReal)
    (V m c main_v26 : S101376x200.Idx → EReal)

/-- Where each window's block sits at point `t`: the query table and the factor matrix at block (0, 0), the entity tile
    at block (`t`, 0), the output at block (0, `t`). -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The query window's block is the query table, at every point. -/
theorem queries_block (c : Dev nD) (t : Fin cfg0.N) (x k : S1024x200.Idx)
    (hk0 : (k 0).val = (x 0).val) (hk1 : (k 1).val = (x 1).val) :
    (iblk m c 0 t : Vec Ideal S1024x200 .f32) x = (V m c main_v25 : S1024x200.Idx → EReal) k := by
  obtain ⟨e0, e1, -⟩ := block_indices t
  have h : ((cfg0.win 0).blk t).view.emb x = k := by
    funext a; apply Fin.ext
    match a with
    | ⟨0, _⟩ => show win0_0.index t (0 : Fin 2) * 1024 + 1 * (x 0).val = (k 0).val; omega
    | ⟨1, _⟩ => show win0_0.index t (1 : Fin 2) * 200 + 1 * (x 1).val = (k 1).val; omega
  show V m c main_v25 (((cfg0.win 0).blk t).view.emb x) = V m c main_v25 k
  rw [h]

/-- The factor window's block is the factor matrix, at every point. -/
theorem factor_block (c : Dev nD) (t : Fin cfg0.N) (x : S200x200.Idx) :
    (iblk m c 1 t : Vec Ideal S200x200 .f32) x = (V m c main_arg8 : S200x200.Idx → EReal) x := by
  obtain ⟨-, -, e0, e1, -⟩ := block_indices t
  have h : ((cfg0.win 1).blk t).view.emb x = x := by
    funext a; apply Fin.ext
    match a with
    | ⟨0, _⟩ => show win0_1.index t (0 : Fin 2) * 200 + 1 * (x 0).val = (x 0).val; omega
    | ⟨1, _⟩ => show win0_1.index t (1 : Fin 2) * 200 + 1 * (x 1).val = (x 1).val; omega
  show V m c main_arg8 (((cfg0.win 1).blk t).view.emb x) = V m c main_arg8 x
  rw [h]

/-- The entity window's block at point `t` is rows `1536 t … 1536 t + 1535` of the padded entity table. -/
theorem tile_block (c : Dev nD) (t : Fin cfg0.N) (x : S1536x200.Idx) (k : S101376x200.Idx)
    (hk0 : (k 0).val = 1536 * t.val + (x 0).val) (hk1 : (k 1).val = (x 1).val) :
    (iblk m c 2 t : Vec Ideal S1536x200 .f32) x = (V m c main_v26 : S101376x200.Idx → EReal) k := by
  obtain ⟨-, -, -, -, e0, e1, -⟩ := block_indices t
  have h : ((cfg0.win 2).blk t).view.emb x = k := by
    funext a; apply Fin.ext
    match a with
    | ⟨0, _⟩ => show win0_2.index t (0 : Fin 2) * 1536 + 1 * (x 0).val = (k 0).val; omega
    | ⟨1, _⟩ => show win0_2.index t (1 : Fin 2) * 200 + 1 * (x 1).val = (k 1).val; omega
  show V m c main_v26 (((cfg0.win 2).blk t).view.emb x) = V m c main_v26 k
  rw [h]

/-- What the body stores at point `t`, at (query `b`, tile row `j`), is the score table at (`b`, `1536 t + j`). -/
theorem stored_at (c : Dev nD) (t : Fin cfg0.N) (y : S1024x1536.Idx) (i : S1024x101376.Idx)
    (h0 : (i 0).val = (y 0).val) (h1 : (i 1).val = 1536 * t.val + (y 1).val) :
    k0_pay1 (F := Ideal) (iblk m c 2 t) (iblk m c 1 t) (iblk m c 0 t) y = paddedScores m c i := by
  obtain ⟨b, j, rfl⟩ : ∃ (b : Fin 1024) (j : Fin 1536), y = ix2 b j := ⟨y 0, y 1, eq_ix2 y⟩
  refine (Cert.KernelIdeal.BodyValue.payload_apply (iblk m c 2 t) (iblk m c 1 t) (iblk m c 0 t) b j).trans ?_
  show Cert.Score.scoreAt (iblk m c 0 t) (iblk m c 1 t) (iblk m c 2 t) b j
    = Cert.Score.scoreAt (V m c main_v25 : S1024x200.Idx → EReal) (V m c main_arg8 : S200x200.Idx → EReal)
        (V m c main_v26 : S101376x200.Idx → EReal) (i 0) (i 1)
  refine Cert.Score.scoreAt_congr (iblk m c 0 t) (V m c main_v25 : S1024x200.Idx → EReal) (iblk m c 1 t)
    (V m c main_arg8 : S200x200.Idx → EReal) (iblk m c 2 t) (V m c main_v26 : S101376x200.Idx → EReal) b (i 0) j (i 1)
    (fun p => ?_) (fun d p => ?_) (fun d => ?_)
  · exact queries_block m c t (ix2 b p) (ix2 (i 0) p) h0 rfl
  · exact factor_block m c t (ix2 d p)
  · exact tile_block m c t (ix2 j d) (ix2 (i 1) d) h1 rfl

/-- WHAT POINT `t` WRITES BACK is block `t` of the score table. -/
theorem flushed_eq (c : Dev nD) (t : Fin cfg0.N) :
    (dats m 0 c).flushed 3 t = ((cfg0.win 3).blk t).view.read (Elt Ideal) (paddedScores m c) := by
  obtain ⟨-, -, -, -, -, -, e0, e1⟩ := block_indices t
  show (cfg0.win 3).cut (grid0.coords t) ((dats m 0 c).after 3 t) = _
  rw [after0_3]
  unfold out0_3
  rw [View.canon_unit_zero corner]
  simp only [View.ld_unit_zero (S := S1536x200) corner, View.ld_unit_zero (S := S200x200) corner,
    View.ld_unit_zero (S := S1024x200) corner]
  funext y
  refine stored_at m c t y (((cfg0.win 3).blk t).view.emb y) ?_ ?_
  · show win0_3.index t (0 : Fin 2) * 1024 + 1 * (y 0).val = (y 0).val; omega
  · show win0_3.index t (1 : Fin 2) * 1536 + 1 * (y 1).val = 1536 * t.val + (y 1).val; omega

/-- An index of the output array is in point `t`'s block iff each coordinate is in the block's range on its axis. -/
theorem mem_block (t : Fin cfg0.N) (i : S1024x101376.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v27).slice (win0_3.rect t)).set ↔ _
  rw [View.set_slice_whole, Rect.mem_set_unit]
  exact Iff.rfl

/-- Every index of the output array is in some point's block: column `n` is written by point `n / 1536`. -/
theorem covered (i : S1024x101376.Idx) :
    ∃ t : Fin cfg0.N, (cfg0.win 3).flush t = true ∧ i ∈ ((cfg0.win 3).blk t).view.set := by
  have hN : cfg0.N = 66 := N_0
  have hi0 : (i 0).val < 1024 := (i 0).isLt
  have hi1 : (i 1).val < 101376 := (i 1).isLt
  obtain ⟨t, ht⟩ : ∃ t : Fin cfg0.N, t.val = (i 1).val / 1536 := ⟨⟨(i 1).val / 1536, by rw [hN]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1536 ≤ (i 1).val ∧ (i 1).val < win0_3.index t (1 : Fin 2) * 1536 + 1536
    omega

/-- THE OUTPUT ARRAY after the grid is the score table over the padded entity table. -/
theorem final_scores (c : Dev nD) : (dats m 0 c).arrAt 3 cfg0.N = paddedScores m c :=
  (dats m 0 c).arrAt_eq_of_cover 3 (paddedScores m c) (fun t _ => flushed_eq m c t) (covered)

end Cert.KernelIdeal.Blocks

end
-- ==== Proof.HostEntry.lean ====
/-
  What the region finds in the two arrays the host computes before the grid runs.

  Before the kernel is launched the host gathers one row of each embedding table per query, projects each gathered row
  through its factor matrix and multiplies the three projections lane by lane: the table of query rows. These are the same
  operations, in the same order, as the reference's own first lines, so the table is stated as the reference's stage for
  it, applied to the kernel's argument arrays, and never opened. The host also pads the entity table with 1376 further rows
  holding the converted integer zero, so that 66 tiles of 1536 rows tile it.
-/
import proofs.«133441_j49254684951151_1_alg».proof.Proof.Gen.KernelIdeal.Frame
import proofs.«133441_j49254684951151_1_alg».proof.Proof.Gen.ReferenceIdeal.Read
import Idealize.ShloMosaic.Lib.StableHlo.Run

noncomputable section

namespace Cert.KernelIdeal.HostEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The padded entity table as the region finds it: the entity table with 1376 rows of the padding value below it. -/
theorem entry_padded (c : Dev nD) :
    (V m c main_v26 : S101376x200.Idx → EReal)
      = pad S101376x200 ![0, 0] ![1376, 0] ![0, 0] (m ((c : Thread nD τ).loc main_arg3) : S100000x200.Idx → EReal)
          (sitofp (F := Ideal) .f32 (constantI S_ 32 0#32)) pads_S100000x200_S101376x200_013760_000 h_S_ := by
  dsimp only [Gen.V, Gen.V0]
  simp only [Gen.hostOps0, Gen.hostOps0_1, List.flatten_cons, List.flatten_nil, List.append_nil, List.cons_append,
    List.nil_append]
  after_results_simp
  rfl

set_option maxHeartbeats 2000000 in
/-- The table of query rows as the region finds it: the reference's own stage for it, of the kernel's arguments. -/
theorem entry_queries (c : Dev nD) :
    (V m c main_v25 : S1024x200.Idx → EReal)
      = Cert.ReferenceIdeal.Read.val_main_v26 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg9)) := by
  dsimp only [Gen.V, Gen.V0]
  simp only [Gen.hostOps0, Gen.hostOps0_1, List.flatten_cons, List.flatten_nil, List.append_nil, List.cons_append,
    List.nil_append]
  after_results_simp
  rfl

end Cert.KernelIdeal.HostEntry

end
-- ==== Proof.KernelValue.lean ====
/-
  The kernel program's result is the table of scores of its query rows against the entity table.

  After the grid the output array holds the scores against every row of the PADDED entity table; the program's last line
  keeps the first 100000 columns. Column `n < 100000` is the score against padded row `n`, which is the entity table's own
  row `n` (the padding rows lie below it and are cut away), and the query rows and the factor matrix are what the host
  computed and what was passed in. So the result at (query `b`, entity `n`) is the score of `b` against `n`.
-/
import proofs.«133441_j49254684951151_1_alg».proof.Proof.Blocks
import proofs.«133441_j49254684951151_1_alg».proof.Proof.HostEntry
import Idealize.ShloMosaic.Lib.KernelVsHost

noncomputable section

namespace Cert.KernelIdeal.Scores

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The table of scores of the query rows (the reference's stage for them, of the kernel's arguments) against the entity
    table through the third factor matrix. -/
abbrev result (c : Dev nD) : S1024x100000.Idx → EReal :=
  Cert.Score.scores
    (Cert.ReferenceIdeal.Read.val_main_v26 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg9)))
    (m ((c : Thread nD τ).loc main_arg8) : S200x200.Idx → EReal)
    (m ((c : Thread nD τ).loc main_arg3) : S100000x200.Idx → EReal)

/-- A row of the padded entity table above the padding is the entity table's row. -/
theorem padded_row (c : Dev nD) (n : Fin 100000) (n' : Fin 101376) (hn : n'.val = n.val) (d : Fin 200) :
    (V m c main_v26 : S101376x200.Idx → EReal) (ix2 n' d)
      = (m ((c : Thread nD τ).loc main_arg3) : S100000x200.Idx → EReal) (ix2 n d) :=
  (congrFun (Cert.KernelIdeal.HostEntry.entry_padded m c) (ix2 n' d)).trans
    (pad_apply_of_inside ![0, 0] ![1376, 0] ![0, 0] _ _ pads_S100000x200_S101376x200_013760_000 h_S_ (ix2 n' d) (ix2 n d)
      fun a => by
        match a with
        | ⟨0, _⟩ => show n'.val = 0 + n.val * (0 + 1); omega
        | ⟨1, _⟩ => show d.val = 0 + d.val * (0 + 1); omega)

/-- THE RESULT ARRAY, as the program's last line leaves it, is the table of scores. -/
theorem tail_eq (c : Dev nD) :
    (Pipeline.afterTail₀ cfgs (dats m) 0 (V0 m) [hostOps1] c main_v28 : S1024x100000.Idx → EReal) = result m c := by
  unfold Pipeline.afterTail₀
  show StableHlo.after hostOps1 _ (Proc.devRef .tc main_v28) = _
  after_results
  rw [Pipeline.withArrays_arr spec0 launch0.win.arr_inj c _ _ 3]
  show extractStridedSlice S1024x100000 ![0, 0] ((dats m 0 c).arrAt 3 cfg0.N) slices_S1024x101376_S1024x100000_0_0 = _
  rw [Cert.KernelIdeal.Blocks.final_scores]
  funext i
  obtain ⟨b, n, rfl⟩ : ∃ (b : Fin 1024) (n : Fin 100000), i = ix2 b n := ⟨i 0, i 1, eq_ix2 i⟩
  have hn : n.val < 101376 := by have := n.isLt; omega
  have hcut := extractStridedSlice_apply ![0, 0] (Cert.KernelIdeal.Blocks.paddedScores m c)
    slices_S1024x101376_S1024x100000_0_0 (ix2 b n) (ix2 b (⟨n.val, hn⟩ : Fin 101376)) (fun a => by
      match a with
      | ⟨0, _⟩ => show b.val = 0 + b.val; omega
      | ⟨1, _⟩ => show n.val = 0 + n.val; omega)
  rw [hcut]
  show Cert.Score.scoreAt (V m c main_v25 : S1024x200.Idx → EReal) (V m c main_arg8 : S200x200.Idx → EReal)
      (V m c main_v26 : S101376x200.Idx → EReal) b (⟨n.val, hn⟩ : Fin 101376) = Cert.Score.scoreAt _ _ _ b n
  refine Cert.Score.scoreAt_congr _ _ _ _ _ _ b b (⟨n.val, hn⟩ : Fin 101376) n (fun p => ?_) (fun d p => ?_) (fun d => ?_)
  · exact congrFun (Cert.KernelIdeal.HostEntry.entry_queries m c) (ix2 b p)
  · exact congrFun (V_main_arg8 m c) (ix2 d p)
  · exact padded_row m c n ⟨n.val, hn⟩ rfl d

/-- THE RUN: every weakly fair execution of the kernel program terminates with the result array at the table of scores
    and the argument arrays as they were. -/
theorem run : θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 1).trans (((dats m 0 c).arrAt_in 1 rfl _).trans ((A_eq m c 1).trans (V_main_arg8 m c))),
      ((h c).2 main_arg9 (Pipeline.mem_restRefs_of main_arg9 (by decide) (by decide))).trans (W_main_arg9 m (dats m) c)⟩)
    (run_main m ρ)

end Cert.KernelIdeal.Scores

end
-- ==== Proof.RefValue.lean ====
/-
  The reference's result is the table of scores.

  The reference projects every entity row through the factor matrix with one product, transposes the projection,
  multiplies the query rows by it, and writes the logistic function out as `1 / (1 + exp (-x))`. Read at (query `b`,
  entity `n`): the product with the transpose reads the projection at (`n`, `p`), the projection is `∑ d, E (n, d) * W (d, p)`,
  and the quotient is the logistic function at every extended real. The query rows are whatever the earlier
  operations computed; they enter as one table, never opened.
-/
import proofs.«133441_j49254684951151_1_alg».proof.Proof.Gen.ReferenceIdeal.Read
import proofs.«133441_j49254684951151_1_alg».proof.Proof.ScoreSpec
import Idealize.ShloMosaic.Lib.IdealHost

noncomputable section

namespace Cert.ReferenceIdeal.RefValue

open Cert.ReferenceIdeal Cert.ReferenceIdeal.Read Idealize.ShloMosaic Idealize.ShloMosaic.ValueIdx
open scoped BigOperators

/-- The final product's left operand at (`b`, `n`) and rank coordinate `p` is the query table at (`b`, `p`). -/
theorem lidx_score (b : Fin 1024) (n : Fin 100000) (p : Fin 200) : lidx_main_v28 (ix2 b n) p = ix2 b p :=
  funext fun a => by match a with | ⟨0, _⟩ => rfl | ⟨1, _⟩ => rfl

/-- Its right operand, the transposed projection at (`p`, `n`), is the projection at (`n`, `p`). -/
theorem ridx_score (b : Fin 1024) (n : Fin 100000) (p : Fin 200) : idx_main_v27 (ridx_main_v28 (ix2 b n) p) = ix2 n p :=
  funext fun a => by match a with | ⟨0, _⟩ => rfl | ⟨1, _⟩ => rfl

/-- The projection at (`n`, `p`) reads the entity table along row `n` … -/
theorem lidx_proj (n : Fin 100000) (p d : Fin 200) : lidx_main_v24 (ix2 n p) d = ix2 n d :=
  funext fun a => by match a with | ⟨0, _⟩ => rfl | ⟨1, _⟩ => rfl

/-- … and the factor matrix down column `p`. -/
theorem ridx_proj (n : Fin 100000) (p d : Fin 200) : ridx_main_v24 (ix2 n p) d = ix2 d p :=
  funext fun a => by match a with | ⟨0, _⟩ => rfl | ⟨1, _⟩ => rfl

/-- THE REFERENCE'S RESULT is the table of scores of its own query rows against the entity table. -/
theorem result_eq_scores (x0 x1 x2 : (⟨S1024, .i32⟩ : BufTy).Contents (Elt Ideal)) (x3 : (⟨S100000x200, .f32⟩ : BufTy).Contents (Elt Ideal))
    (x4 : (⟨S500x200, .f32⟩ : BufTy).Contents (Elt Ideal)) (x5 : (⟨S365x200, .f32⟩ : BufTy).Contents (Elt Ideal))
    (x6 x7 x8 x9 : (⟨S200x200, .f32⟩ : BufTy).Contents (Elt Ideal)) :
    val_main_v34 (F := Ideal) x0 x1 x2 x3 x4 x5 x6 x7 x8 x9
      = Cert.Score.scores (val_main_v26 (F := Ideal) x0 x1 x2 x3 x4 x5 x6 x7 x9) x8 x3 := by
  funext i
  obtain ⟨b, n, rfl⟩ : ∃ (b : Fin 1024) (n : Fin 100000), i = ix2 b n := ⟨i 0, i 1, eq_ix2 i⟩
  rw [val_main_v34_apply, val_main_v33_apply, val_main_cst_5_apply, val_main_v32_apply, val_main_v31_apply,
    val_main_cst_apply, val_main_v30_apply, val_main_v29_apply, val_main_v28_apply]
  simp only [val_main_v27_apply, val_main_v24_apply, lidx_score, ridx_score, lidx_proj, ridx_proj,
    Ideal.hostDivf_def, Ideal.addf_def, Ideal.hostUnary_exp_def, Ideal.hostNegf_def, Ideal.negf_def, Ideal.ofBits_def,
    Ideal.ofBits_one_f32]
  exact Cert.Score.one_div_one_add_exp_neg _

end Cert.ReferenceIdeal.RefValue

end
-- ==== Proof.lean ====
/-
  Scoring 1024 queries against 100000 entities in a rank-200 factorisation: the tiled kernel program and the plain
  reference compute the same table over the extended reals.

  Both programs first form the 1024 query rows the same way — one row gathered from each of three embedding tables,
  each projected through its own factor matrix, the three projections multiplied lane by lane. Both then score a query
  row `u` against an entity row `e` as the logistic function of `∑ p, u p * ∑ d, e d * W d p`, with `W` the third factor
  matrix: the reference by projecting the whole entity table at once, transposing, and one product; the kernel tile by
  tile, 1536 entity rows at a time over an entity table padded with zero rows to 66 tiles, with a product against the
  transposed tile and the padding's columns cut away at the end. The nesting of the two sums is the same in both, the
  changes of float format on the kernel's way into its products are the identity on the extended reals, and the
  reference's `1 / (1 + exp (-x))` is the logistic function at every extended real, the infinities included. So the two
  results agree entry by entry with no law beyond re-indexing: no distributivity, no cancellation, and the finiteness of
  the inputs is never used.

  The frames are the generated ones (the reference's is its generated run with the result dropped); the idealisation
  rewrote nothing, so there is nothing to preserve; the value claim joins the kernel's run (read block by block off its
  frame, then through the padding and the final cut) with the reference's run (read operation by operation).
-/
import proofs.«133441_j49254684951151_1_alg».proof.Defs
import proofs.«133441_j49254684951151_1_alg».proof.Proof.Gen.Kernel
import proofs.«133441_j49254684951151_1_alg».proof.Proof.Gen.Kernel.Skeleton
import proofs.«133441_j49254684951151_1_alg».proof.Proof.Gen.Kernel.Launch
import proofs.«133441_j49254684951151_1_alg».proof.Proof.Gen.Kernel.Points
import proofs.«133441_j49254684951151_1_alg».proof.Proof.Gen.Kernel.Frame
import proofs.«133441_j49254684951151_1_alg».proof.Proof.Gen.KernelIdeal
import proofs.«133441_j49254684951151_1_alg».proof.Proof.Gen.KernelIdeal.Skeleton
import proofs.«133441_j49254684951151_1_alg».proof.Proof.Gen.KernelIdeal.Launch
import proofs.«133441_j49254684951151_1_alg».proof.Proof.Gen.KernelIdeal.Points
import proofs.«133441_j49254684951151_1_alg».proof.Proof.Gen.KernelIdeal.Frame
import proofs.«133441_j49254684951151_1_alg».proof.Proof.Gen.ReferenceIdeal
import proofs.«133441_j49254684951151_1_alg».proof.Proof.Gen.Pre_finite_inputs
import proofs.«133441_j49254684951151_1_alg».proof.Proof.Gen.ReferenceIdeal.Run
import proofs.«133441_j49254684951151_1_alg».proof.Proof.Gen.ReferenceIdeal.Read
import proofs.«133441_j49254684951151_1_alg».proof.Proof.KernelValue
import proofs.«133441_j49254684951151_1_alg».proof.Proof.RefValue
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealisation. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, the kernel's result array ends at the table of scores of its own
    arguments, and the reference's at the table of scores of its own — the same table once the arguments are identified. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Scores.result m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v34_eq, Cert.ReferenceIdeal.RefValue.result_eq_scores, a0, a1, a2, a3, a4, a5, a6,
    a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
